-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part6 {F : FTy → Type} [FloatOps F] (main_arg21 : FVec F S1024 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S1024 .f32 := Host.absf main_arg21
  let main_cst_40 : FVec F S_ .f32 := constant S_ .f32 0x7F800000#32
  let main_v105 : FVec F S1024 .f32 := broadcastInDim S1024 ![] bcast_S_S1024 main_cst_40
  let main_v106 : IVec S1024 1 := cmpf .olt main_v104 main_v105
  let main_c_41 : IVec S_ 1 := constantI S_ 1 1#1
  let main_v107 : IVec S_ 1 := (fun x v => Host.reduce IntOp.andi x v reducesTo_S1024_S_d0 h_S_) main_v106 main_c_41
  let main_v108 : IVec S_ 1 := andi main_v103 main_v107
  main_v108

def fn_part5 {F : FTy → Type} [FloatOps F] (main_arg18 : FVec F S1024 .f32) (main_arg19 : FVec F S1024x1024 .f32) (main_arg20 : FVec F S1024 .f32) (main_arg21 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024x1024 .f32 := Host.absf main_arg19
  let main_cst_36 : FVec F S_ .f32 := constant S_ .f32 0x7F800000#32
  let main_v95 : FVec F S1024x1024 .f32 := broadcastInDim S1024x1024 ![] bcast_S_S1024x1024 main_cst_36
  let main_v96 : IVec S1024x1024 1 := cmpf .olt main_v94 main_v95
  let main_c_37 : IVec S_ 1 := constantI S_ 1 1#1
  let main_v97 : IVec S_ 1 := (fun x v => Host.reduce IntOp.andi x v reducesTo_S1024x1024_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_v98 main_v101 main_c_39

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_arg19 : FVec F S1024x1024 .f32) (main_arg20 : FVec F S1024 .f32) (main_arg21 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_arg19 main_arg20 main_arg21 main_v83 main_v84 main_cst_32

def fn_part3 {F : FTy → Type} [FloatOps F] (main_arg11 : FVec F S1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_arg19 : FVec F S1024x1024 .f32) (main_arg20 : FVec F S1024 .f32) (main_arg21 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_arg19 main_arg20 main_arg21 main_v63 main_v67

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_arg19 : FVec F S1024x1024 .f32) (main_arg20 : FVec F S1024 .f32) (main_arg21 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_arg17 main_arg18 main_arg19 main_arg20 main_arg21 main_v48 main_v49 main_v50

def fn_part1 {F : FTy → Type} [FloatOps F] (main_arg4 : FVec F S1024 .f32) (main_arg5 : FVec F S1024x1024 .f32) (main_arg6 : FVec F S1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_arg19 : FVec F S1024x1024 .f32) (main_arg20 : FVec F S1024 .f32) (main_arg21 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024 .f32) (main_arg8 : FVec F S1024x1024 .f32) (main_arg9 : FVec F S1024 .f32) (main_arg10 : FVec F S1024x1024 .f32) (main_arg11 : FVec F S1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_arg19 : FVec F S1024x1024 .f32) (main_arg20 : FVec F S1024 .f32) (main_arg21 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩

abbrev nBuf : Space → Nat
  | .hbm => 35
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S1024, .f32⟩
  | .hbm, ⟨21, _⟩ => ⟨S1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S4096x1024, .f32⟩
  | .hbm, ⟨34, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11_0 : Ref sig .tc := ⟨.hbm, 33, rfl⟩
abbrev main_v11_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22
abbrev cc0_sem19_0 : DmaSem sig := 23
abbrev cc0_sem19_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .f32 = 32 ∨ (Rect.block (s := S1024x1024) S1024x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .f32 = 32 ∨ (Rect.block (s := S1024x1024) S1024x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .f32 = 32 ∨ (Rect.block (s := S1024x1024) S1024x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .f32 = 32 ∨ (Rect.block (s := S1024x1024) S1024x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .f32 = 32 ∨ (Rect.block (s := S1024x1024) S1024x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .f32 = 32 ∨ (Rect.block (s := S1024x1024) S1024x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1024.size a ≤ S1x1024.size a
  hwx0_13 : ∀ i : grid0.Coords, EltTy.bits .f32 = 32 ∨ (Rect.block (s := S1x1024) S1x1024.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1024.size a ≤ S1x1024.size a
  hwx0_14 : ∀ i : grid0.Coords, EltTy.bits .f32 = 32 ∨ (Rect.block (s := S1x1024) S1x1024.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1024.size a ≤ S1x1024.size a
  hwx0_16 : ∀ i : grid0.Coords, EltTy.bits .f32 = 32 ∨ (Rect.block (s := S1x1024) S1x1024.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x1024.size a ≤ S1x1024.size a
  hwx0_17 : ∀ i : grid0.Coords, EltTy.bits .f32 = 32 ∨ (Rect.block (s := S1x1024) S1x1024.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S256x1024.size a ≤ S4096x1024.size a
  hwx0_18 : ∀ i : grid0.Coords, EltTy.bits .f32 = 32 ∨ (Rect.block (s := S4096x1024) S256x1024.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S256x1024.size a ≤ S4096x1024.size a
  hwx0_19 : ∀ i : grid0.Coords, EltTy.bits .f32 = 32 ∨ (Rect.block (s := S4096x1024) S256x1024.size (cc0_transform_19 i) (hinb0_19 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg15) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg17) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg19) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v1) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S1x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S1x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v9) S1x1024.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v10) S1x1024.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v11_0) S256x1024.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v11_1) S256x1024.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S1x1024 : Shape := ⟨2, ![1, 1024]⟩
abbrev S_ : Shape := ⟨0, ![]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .f32⟩
  | .hbm, ⟨20, _⟩ => ⟨S1024, .f32⟩
  | .hbm, ⟨21, _⟩ => ⟨S1024, .f32⟩
  | .hbm, ⟨22, _⟩ => ⟨S4096x1024, .f32⟩
  | .hbm, ⟨23, _⟩ => ⟨S4096x1024, .f32⟩
  | .hbm, ⟨24, _⟩ => ⟨S4096, .f32⟩
  | .hbm, ⟨25, _⟩ => ⟨S4096, .f32⟩
  | .hbm, ⟨26, _⟩ => ⟨S1024x4096, .f32⟩
  | .hbm, ⟨27, _⟩ => ⟨S4096x4096, .f32⟩
  | .hbm, ⟨28, _⟩ => ⟨S1024x4096, .f32⟩
  | .hbm, ⟨29, _⟩ => ⟨S4096x4096, .f32⟩
  | .hbm, ⟨30, _⟩ => ⟨S4096x4096, .f32⟩
  | .hbm, ⟨31, _⟩ => ⟨S4096, .f32⟩
  | .hbm, ⟨32, _⟩ => ⟨S1x4096, .f32⟩
  | .hbm, ⟨33, _⟩ => ⟨S4096x4096, .f32⟩
  | .hbm, ⟨34, _⟩ => ⟨S4096x4096, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst : Ref sig .tc := ⟨.hbm, 45, rfl⟩
abbrev main_v23 : Ref sig .tc := ⟨.hbm, 46, rfl⟩
abbrev main_v24 : Ref sig .tc := ⟨.hbm, 47, rfl⟩
abbrev main_cst_0 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_1 : Ref sig .tc := ⟨.hbm, 57, rfl⟩
abbrev main_v33 : Ref sig .tc := ⟨.hbm, 58, rfl⟩
abbrev main_v34 : Ref sig .tc := ⟨.hbm, 59, rfl⟩
abbrev main_cst_2 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_3 : Ref sig .tc := ⟨.hbm, 73, rfl⟩
abbrev main_v47 : Ref sig .tc := ⟨.hbm, 74, rfl⟩
abbrev main_v48 : Ref sig .tc := ⟨.hbm, 75, rfl⟩
abbrev main_cst_4 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Spec.lean ====
/-
  The peephole LSTM cell as ONE function of the argument arrays, entry by entry, on the extended reals.

  For a batch row r and a hidden column j, each of the four gates has the pre-activation
      z(r, j) = (sum_k X(r,k) * Wx(j,k)  +  sum_k H(r,k) * Wh(j,k))  +  b(j)
  (the weights in the torch layout [out, in], contracted on their second axis; b the sum of the gate's two bias
  vectors). With sigma the logistic function,
      i = sigma (z_i + w_ci(j) * c),   f = sigma (z_f + w_cf(j) * c),   g = tanh z_g,
      c' = f * c + i * g,              o = sigma (z_o + w_co(j) * c'),  h' = o * tanh c'
  where c = C(r, j). Nothing here needs the entries to be finite: both programs apply these operations in this order
  and this association, so the two sides are the same expression and no law of arithmetic is used.

  The row count M is a parameter: a block of 256 rows and the whole array of 4096 rows are read by the same function,
  and row r of the result depends on X, H and C through their row r only (cNextAt_congr, hNextAt_congr).
-/
import Idealize.ShloMosaic.PureOps.Ideal
import Idealize.ShloMosaic.Lib.ValueIdx

noncomputable section

namespace Cert.PeepholeLstm

open Idealize.ShloMosaic Idealize.ShloMosaic.ValueIdx

/-- An [a, b] array of extended reals. -/
abbrev Mat (a b : Nat) : Type := (⟨2, ![a, b]⟩ : Shape).Idx → EReal

/-- Row r of X against row j of W: the (r, j) entry of X times W transposed. -/
def rowDot {M : Nat} (X : Mat M 1024) (W : Mat 1024 1024) (r : Fin M) (j : Fin 1024) : EReal :=
  ∑ k : Fin 1024, X (ix2 r k) * W (ix2 j k)

/-- A gate's pre-activation at (r, j): the input product plus the hidden product, plus the bias b at column j. -/
def preAct {M : Nat} (X H : Mat M 1024) (Wx Wh : Mat 1024 1024) (b : EReal) (r : Fin M) (j : Fin 1024) : EReal :=
  rowDot X Wx r j + rowDot H Wh r j + b

/-- The new cell value from the three pre-activations, the two peephole weights and the old cell value. -/
def cellUpdate (zi zf zg wci wcf c : EReal) : EReal :=
  Ideal.logistic (zf + wcf * c) * c + Ideal.logistic (zi + wci * c) * Ideal.tanh zg

/-- The new hidden value from the output gate's pre-activation, its peephole weight and the new cell value. -/
def hiddenUpdate (zo wco cn : EReal) : EReal :=
  Ideal.logistic (zo + wco * cn) * Ideal.tanh cn

/-- The new cell array at (r, j). -/
def cNextAt {M : Nat} (X H C : Mat M 1024) (Wii Whi Wif Whf Wig Whg : Mat 1024 1024)
    (bi bf bg wci wcf : Fin 1024 → EReal) (r : Fin M) (j : Fin 1024) : EReal :=
  cellUpdate (preAct X H Wii Whi (bi j) r j) (preAct X H Wif Whf (bf j) r j) (preAct X H Wig Whg (bg j) r j)
    (wci j) (wcf j) (C (ix2 r j))

/-- The new hidden array at (r, j). -/
def hNextAt {M : Nat} (X H C : Mat M 1024) (Wii Whi Wif Whf Wig Whg Wio Who : Mat 1024 1024)
    (bi bf bg bo wci wcf wco : Fin 1024 → EReal) (r : Fin M) (j : Fin 1024) : EReal :=
  hiddenUpdate (preAct X H Wio Who (bo j) r j) (wco j) (cNextAt X H C Wii Whi Wif Whf Wig Whg bi bf bg wci wcf r j)

/-- An [a] vector of extended reals. -/
abbrev Vc (a : Nat) : Type := (⟨1, ![a]⟩ : Shape).Idx → EReal

/-- THE NEW CELL ARRAY as one function of the argument arrays it depends on, in the entry point's order: x, h, c, then
    per gate the input weights, input bias, hidden weights, hidden bias, and after the input and forget gates their
    peephole vectors. The two bias vectors of a gate enter as their sum at the column. -/
def cNextArr (x h c : Mat 4096 1024) (wii : Mat 1024 1024) (bxi : Vc 1024) (whi : Mat 1024 1024) (bhi wci : Vc 1024)
    (wif : Mat 1024 1024) (bxf : Vc 1024) (whf : Mat 1024 1024) (bhf wcf : Vc 1024)
    (wig : Mat 1024 1024) (bxg : Vc 1024) (whg : Mat 1024 1024) (bhg : Vc 1024) : Mat 4096 1024 :=
  fun i => cNextAt x h c wii whi wif whf wig whg (fun j => bxi (ix1 j) + bhi (ix1 j)) (fun j => bxf (ix1 j) + bhf (ix1 j))
    (fun j => bxg (ix1 j) + bhg (ix1 j)) (fun j => wci (ix1 j)) (fun j => wcf (ix1 j)) (i 0) (i 1)

/-- THE NEW HIDDEN ARRAY as one function of all twenty-two argument arrays, in the entry point's order. -/
def hNextArr (x h c : Mat 4096 1024) (wii : Mat 1024 1024) (bxi : Vc 1024) (whi : Mat 1024 1024) (bhi wci : Vc 1024)
    (wif : Mat 1024 1024) (bxf : Vc 1024) (whf : Mat 1024 1024) (bhf wcf : Vc 1024)
    (wig : Mat 1024 1024) (bxg : Vc 1024) (whg : Mat 1024 1024) (bhg : Vc 1024)
    (wio : Mat 1024 1024) (bxo : Vc 1024) (who : Mat 1024 1024) (bho wco : Vc 1024) : Mat 4096 1024 :=
  fun i => hNextAt x h c wii whi wif whf wig whg wio who (fun j => bxi (ix1 j) + bhi (ix1 j))
    (fun j => bxf (ix1 j) + bhf (ix1 j)) (fun j => bxg (ix1 j) + bhg (ix1 j)) (fun j => bxo (ix1 j) + bho (ix1 j))
    (fun j => wci (ix1 j)) (fun j => wcf (ix1 j)) (fun j => wco (ix1 j)) (i 0) (i 1)

/-- A row product sees X through one row only. -/
theorem rowDot_congr {M M' : Nat} (X : Mat M 1024) (X' : Mat M' 1024) (W : Mat 1024 1024) (r : Fin M) (r' : Fin M')
    (j : Fin 1024) (hX : ∀ k : Fin 1024, X (ix2 r k) = X' (ix2 r' k)) : rowDot X W r j = rowDot X' W r' j :=
  Finset.sum_congr rfl fun k _ => by rw [hX k]

theorem preAct_congr {M M' : Nat} (X H : Mat M 1024) (X' H' : Mat M' 1024) (Wx Wh : Mat 1024 1024) (b : EReal)
    (r : Fin M) (r' : Fin M') (j : Fin 1024) (hX : ∀ k : Fin 1024, X (ix2 r k) = X' (ix2 r' k))
    (hH : ∀ k : Fin 1024, H (ix2 r k) = H' (ix2 r' k)) : preAct X H Wx Wh b r j = preAct X' H' Wx Wh b r' j := by
  unfold preAct
  rw [rowDot_congr X X' Wx r r' j hX, rowDot_congr H H' Wh r r' j hH]

/-- Row r of the new cell array depends on X, H and C through their row r only. -/
theorem cNextAt_congr {M M' : Nat} (X H C : Mat M 1024) (X' H' C' : Mat M' 1024) (Wii Whi Wif Whf Wig Whg : Mat 1024 1024)
    (bi bf bg wci wcf : Fin 1024 → EReal) (r : Fin M) (r' : Fin M') (j : Fin 1024)
    (hX : ∀ k : Fin 1024, X (ix2 r k) = X' (ix2 r' k)) (hH : ∀ k : Fin 1024, H (ix2 r k) = H' (ix2 r' k))
    (hC : C (ix2 r j) = C' (ix2 r' j)) :
    cNextAt X H C Wii Whi Wif Whf Wig Whg bi bf bg wci wcf r j = cNextAt X' H' C' Wii Whi Wif Whf Wig Whg bi bf bg wci wcf r' j := by
  unfold cNextAt
  rw [preAct_congr X H X' H' Wii Whi (bi j) r r' j hX hH, preAct_congr X H X' H' Wif Whf (bf j) r r' j hX hH,
    preAct_congr X H X' H' Wig Whg (bg j) r r' j hX hH, hC]

/-- Row r of the new hidden array depends on X, H and C through their row r only. -/
theorem hNextAt_congr {M M' : Nat} (X H C : Mat M 1024) (X' H' C' : Mat M' 1024)
    (Wii Whi Wif Whf Wig Whg Wio Who : Mat 1024 1024) (bi bf bg bo wci wcf wco : Fin 1024 → EReal)
    (r : Fin M) (r' : Fin M') (j : Fin 1024)
    (hX : ∀ k : Fin 1024, X (ix2 r k) = X' (ix2 r' k)) (hH : ∀ k : Fin 1024, H (ix2 r k) = H' (ix2 r' k))
    (hC : C (ix2 r j) = C' (ix2 r' j)) :
    hNextAt X H C Wii Whi Wif Whf Wig Whg Wio Who bi bf bg bo wci wcf wco r j
      = hNextAt X' H' C' Wii Whi Wif Whf Wig Whg Wio Who bi bf bg bo wci wcf wco r' j := by
  unfold hNextAt
  rw [preAct_congr X H X' H' Wio Who (bo j) r r' j hX hH,
    cNextAt_congr X H C X' H' C' Wii Whi Wif Whf Wig Whg bi bf bg wci wcf r r' j hX hH hC]

end Cert.PeepholeLstm

end
-- ==== Proof.LibDotRowsRows.lean ====
/-
  Cert.Lib.DotRowsRows: a matrix product with the right operand in the [out, in] layout (y = x @ W.T), as a plain sum.

  For a contraction record over [M, K] x [N, K] -> [M, N] with ONE contracted axis, the second axis of each operand,
  the sum over the record's contraction indices of left (lhsIdx j q) * right (rhsIdx j q) at the output index
  j = (p, c) is the sum over k : Fin K of left (p, k) * right (c, k): row p of the left operand against row c of the
  right one. The record enters only through six facts — its contraction shape has rank one and extent K, and the four
  coordinates of the two operand indices — so one lemma serves a kernel's tpu.matmul with dimension numbers
  [1], [1], [0], [0] and a host dot_general contracting [1] x [1]. The values may be of any type with a product and a
  commutative sum; no law of arithmetic beyond re-indexing the sum is used.
-/
import Idealize.ShloMosaic.Lib.ValueIdx

namespace Cert.Lib.DotRowsRows

open Idealize.ShloMosaic Idealize.ShloMosaic.ValueIdx

/-- Row `p` of the left operand against row `c` of the right operand: the contraction over the record's index type
    re-indexed by the one coordinate of that index. -/
theorem sum_rows_rows {α : Type} [AddCommMonoid α] [Mul α] {M K N : Nat}
    (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q ⟨0, Nat.zero_lt_two⟩).val = (j 0).val)
    (hl1 : ∀ (j : (⟨2, ![M, N]⟩ : Shape).Idx) (q : D.contr.Idx), (D.lhsIdx j q ⟨1, Nat.one_lt_two⟩).val = (q ⟨0, by omega⟩).val)
    (hr0 : ∀ (j : (⟨2, ![M, N]⟩ : Shape).Idx) (q : D.contr.Idx), (D.rhsIdx j q ⟨0, Nat.zero_lt_two⟩).val = (j 1).val)
    (hr1 : ∀ (j : (⟨2, ![M, N]⟩ : Shape).Idx) (q : D.contr.Idx), (D.rhsIdx j q ⟨1, Nat.one_lt_two⟩).val = (q ⟨0, by omega⟩).val)
    (L : (⟨2, ![M, K]⟩ : Shape).Idx → α) (R : (⟨2, ![N, K]⟩ : Shape).Idx → α) (p : Fin M) (c : Fin N) :
    ∑ q : D.contr.Idx, L (D.lhsIdx (ix2 p c) q) * R (D.rhsIdx (ix2 p c) q) = ∑ k : Fin K, L (ix2 p k) * R (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.DotRowsRows
-- ==== Proof.KernelBlock.lean ====
/-
  What one grid point's body computes, entry by entry, at the ideal values.

  The body loads a block of 256 rows of x, h and c, the eight whole weight matrices, the four summed bias rows and
  the three peephole rows, and stores two [256, 1024] values. Read at (p, q) they are the cell functions of
  Spec.lean over the loaded blocks: each tpu.matmul into the zero accumulator is row p of its left operand against
  row q of its right operand (the weights are [out, in], contracted on their second axis), the roundings to bf16 are
  the identity on extended reals, and a [1, 1024] row broadcast over the rows reads its column q.
-/
import proofs.«138768_j65240553226497_2_alg».proof.Proof.Gen.KernelIdeal.Skeleton
import proofs.«138768_j65240553226497_2_alg».proof.Proof.Spec
import proofs.«138768_j65240553226497_2_alg».proof.Proof.LibDotRowsRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Cert.PeepholeLstm
open Idealize.ShloMosaic Idealize.ShloMosaic.ValueIdx

/-- The body's one contraction: [256, 1024] x [1024, 1024] -> [256, 1024], each operand contracted on its second axis. -/
abbrev dotNT : DotDims S256x1024 S1024x1024 S256x1024 := dot_S256x1024_S1024x1024_S256x1024_1_1_0_0_n_n

theorem dotNT_lhs0 (j : S256x1024.Idx) (q : dotNT.contr.Idx) : (dotNT.lhsIdx j q ⟨0, Nat.zero_lt_two⟩).val = (j 0).val := by
  unfold DotDims.lhsIdx
  rw [dif_neg (show ¬(⟨0, Nat.zero_lt_two⟩ : Fin S256x1024.rank) ∈ dotNT.lhsBatch by decide),
    dif_pos (show (⟨0, Nat.zero_lt_two⟩ : Fin S256x1024.rank) ∈ dotNT.lhsNonContracting by decide)]
  rfl

theorem dotNT_lhs1 (j : S256x1024.Idx) (q : dotNT.contr.Idx) :
    (dotNT.lhsIdx j q ⟨1, Nat.one_lt_two⟩).val = (q ⟨0, by decide⟩).val :=
  dotNT.lhsIdx_val_of_single rfl j q

theorem dotNT_rhs0 (j : S256x1024.Idx) (q : dotNT.contr.Idx) : (dotNT.rhsIdx j q ⟨0, Nat.zero_lt_two⟩).val = (j 1).val := by
  unfold DotDims.rhsIdx
  rw [dif_neg (show ¬(⟨0, Nat.zero_lt_two⟩ : Fin S1024x1024.rank) ∈ dotNT.rhsBatch by decide),
    dif_pos (show (⟨0, Nat.zero_lt_two⟩ : Fin S1024x1024.rank) ∈ dotNT.rhsNonContracting by decide)]
  rfl

theorem dotNT_rhs1 (j : S256x1024.Idx) (q : dotNT.contr.Idx) :
    (dotNT.rhsIdx j q ⟨1, Nat.one_lt_two⟩).val = (q ⟨0, by decide⟩).val :=
  dotNT.rhsIdx_val_of_single rfl j q

/-- A tpu.matmul of the body into the zero accumulator, read at (p, q): row p of the left operand against row q of
    the right operand. -/
theorem matmul_rowDot (L : FVec Ideal S256x1024 .bf16) (R : FVec Ideal S1024x1024 .bf16) (p : Fin 256) (q : Fin 1024) :
    matmul dot_S256x1024_S1024x1024_S256x1024_1_1_0_0_n_n none L R (constant (F := Ideal) S256x1024 .f32 0x00000000#32) (ix2 p q)
      = rowDot L R p q := by
  simp only [matmul]
  rw [Ideal.matmul_constant_zero_apply]
  exact Cert.Lib.DotRowsRows.sum_rows_rows dotNT rfl rfl dotNT_lhs0 dotNT_lhs1 dotNT_rhs0 dotNT_rhs1 L R p q

/-- A summed bias row or a peephole row, passed through the body's identity cast and broadcast over the 256 rows,
    read at (p, q): the row at column q. -/
theorem row_apply (v : Vec Ideal S1x1024 .f32) (p : Fin 256) (q : Fin 1024) :
    broadcastTo S256x1024 (shapeCast S1x1024 v shapeCasts_S1x1024_S1x1024) broadcasts_S1x1024_S256x1024 (ix2 p q)
      = v (ix2 (0 : Fin 1) q) := by
  rw [shapeCast_self]
  exact broadcastTo_1b_ab_apply v broadcasts_S1x1024_S256x1024 p q

/-- The logistic function and tanh act entry by entry. -/
theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The input gate's pre-activation at (p, q): the two row products, then the summed bias at column q. -/
theorem pay3_apply (v0 v2 : Vec Ideal S256x1024 .f32) (v5 v7 : Vec Ideal S1024x1024 .f32) (v12 : Vec Ideal S1x1024 .f32)
    (p : Fin 256) (q : Fin 1024) :
    k0_pay3 v0 v2 v5 v7 v12 (ix2 p q) = preAct v0 v2 v5 v7 (v12 (ix2 (0 : Fin 1) q)) p q := by
  unfold k0_pay3 k0_pay1 k0_pay2 preAct
  dsimp only
  rw [addf_apply, addf_apply, matmul_rowDot, matmul_rowDot, row_apply]
  rfl

/-- The forget gate's pre-activation at (p, q). -/
theorem pay4_apply (v0 v2 : Vec Ideal S256x1024 .f32) (v16 v18 : Vec Ideal S1024x1024 .f32) (v23 : Vec Ideal S1x1024 .f32)
    (p : Fin 256) (q : Fin 1024) :
    k0_pay4 v0 v2 v16 v18 v23 (ix2 p q) = preAct v0 v2 v16 v18 (v23 (ix2 (0 : Fin 1) q)) p q := by
  unfold k0_pay4 k0_pay1 k0_pay2 preAct
  dsimp only
  rw [addf_apply, addf_apply, matmul_rowDot, matmul_rowDot, row_apply]
  rfl

/-- The candidate's input product at (p, q). -/
theorem pay6_apply (v0 : Vec Ideal S256x1024 .f32) (v27 : Vec Ideal S1024x1024 .f32) (p : Fin 256) (q : Fin 1024) :
    k0_pay6 v0 v27 (ix2 p q) = rowDot v0 v27 p q := by
  unfold k0_pay6 k0_pay1
  dsimp only
  rw [matmul_rowDot]
  rfl

/-- The new cell value at (p, q) from the two finished pre-activations, the candidate's two products and bias row,
    the two peephole rows and the old cell block. -/
theorem pay7_apply (v3 : FVec Ideal S256x1024 .bf16) (v4 : Vec Ideal S256x1024 .f32) (v15 v26 : FVec Ideal S256x1024 .f32)
    (v30 : FVec Ideal S1024x1024 .bf16) (v31 : FVec Ideal S256x1024 .f32) (v34 v49 v55 : Vec Ideal S1x1024 .f32)
    (p : Fin 256) (q : Fin 1024) :
    k0_pay7 v3 v4 v15 v26 v30 v31 v34 v49 v55 (ix2 p q)
      = cellUpdate (v15 (ix2 p q)) (v26 (ix2 p q)) (v31 (ix2 p q) + rowDot v3 v30 p q + v34 (ix2 (0 : Fin 1) q))
          (v49 (ix2 (0 : Fin 1) q)) (v55 (ix2 (0 : Fin 1) q)) (v4 (ix2 p q)) := by
  unfold k0_pay7 cellUpdate
  simp only [addf_apply, mulf_apply, logistic_apply, tanh_apply, matmul_rowDot]
  rw [row_apply, row_apply, row_apply]

/-- The new hidden value at (p, q) from the output gate's two products and bias row, its peephole row and the new
    cell value. -/
theorem pay8_apply (v1 v3 : FVec Ideal S256x1024 .bf16) (v4 : Vec Ideal S256x1024 .f32) (v15 v26 : FVec Ideal S256x1024 .f32)
    (v30 : FVec Ideal S1024x1024 .bf16) (v31 : FVec Ideal S256x1024 .f32) (v34 : Vec Ideal S1x1024 .f32)
    (v38 v40 : Vec Ideal S1024x1024 .f32) (v45 v49 v55 v65 : Vec Ideal S1x1024 .f32) (p : Fin 256) (q : Fin 1024) :
    k0_pay8 v1 v3 v4 v15 v26 v30 v31 v34 v38 v40 v45 v49 v55 v65 (ix2 p q)
      = hiddenUpdate (rowDot v1 v38 p q + rowDot v3 v40 p q + v45 (ix2 (0 : Fin 1) q)) (v65 (ix2 (0 : Fin 1) q))
          (k0_pay7 v3 v4 v15 v26 v30 v31 v34 v49 v55 (ix2 p q)) := by
  unfold k0_pay8 hiddenUpdate
  simp only [addf_apply, mulf_apply, logistic_apply, tanh_apply, matmul_rowDot]
  rw [row_apply, row_apply]
  rfl

/-- WHAT THE BODY STORES FOR THE CELL OUTPUT, at (p, q): the new cell value of Spec.lean over the loaded blocks. -/
theorem cBlock_apply (x0 x1 x2 : Vec Ideal S256x1024 .f32) (x3 x4 x5 x6 x7 x8 : Vec Ideal S1024x1024 .f32)
    (x11 x12 x13 x15 x16 : Vec Ideal S1x1024 .f32) (p : Fin 256) (q : Fin 1024) :
    k0_pay7 (k0_pay2 x1) x2 (k0_pay3 x0 x1 x3 x4 x11) (k0_pay4 x0 x1 x5 x6 x12) (k0_pay5 x8) (k0_pay6 x0 x7) x13 x15 x16 (ix2 p q)
      = cNextAt x0 x1 x2 x3 x4 x5 x6 x7 x8 (fun j => x11 (ix2 (0 : Fin 1) j)) (fun j => x12 (ix2 (0 : Fin 1) j))
          (fun j => x13 (ix2 (0 : Fin 1) j)) (fun j => x15 (ix2 (0 : Fin 1) j)) (fun j => x16 (ix2 (0 : Fin 1) j)) p q := by
  rw [pay7_apply, pay3_apply, pay4_apply, pay6_apply]
  rfl

/-- WHAT THE BODY STORES FOR THE HIDDEN OUTPUT, at (p, q): the new hidden value of Spec.lean over the loaded blocks. -/
theorem hBlock_apply (x0 x1 x2 : Vec Ideal S256x1024 .f32) (x3 x4 x5 x6 x7 x8 x9 x10 : Vec Ideal S1024x1024 .f32)
    (x11 x12 x13 x14 x15 x16 x17 : Vec Ideal S1x1024 .f32) (p : Fin 256) (q : Fin 1024) :
    k0_pay8 (k0_pay1 x0) (k0_pay2 x1) x2 (k0_pay3 x0 x1 x3 x4 x11) (k0_pay4 x0 x1 x5 x6 x12) (k0_pay5 x8) (k0_pay6 x0 x7)
        x13 x9 x10 x14 x15 x16 x17 (ix2 p q)
      = hNextAt x0 x1 x2 x3 x4 x5 x6 x7 x8 x9 x10 (fun j => x11 (ix2 (0 : Fin 1) j)) (fun j => x12 (ix2 (0 : Fin 1) j))
          (fun j => x13 (ix2 (0 : Fin 1) j)) (fun j => x14 (ix2 (0 : Fin 1) j)) (fun j => x15 (ix2 (0 : Fin 1) j))
          (fun j => x16 (ix2 (0 : Fin 1) j)) (fun j => x17 (ix2 (0 : Fin 1) j)) p q := by
  rw [pay8_apply, cBlock_apply]
  rfl

end Cert.KernelIdeal.Block

end
-- ==== Proof.KernelReads.lean ====
/-
  The staged blocks of one grid point, read off the arrays.

  The grid has 16 points. Point t stages rows 256 t .. 256 t + 255 of x, h and c; the whole of each of the eight
  weight matrices; and the whole of each [1, 1024] row the host prepared before the region — a gate's two bias vectors
  added and laid out as one row, or a peephole vector laid out as one row. This module decides the index maps over
  the grid, reads the prepared rows as the region finds them, and reads each staged block as entries of its array.
-/
import proofs.«138768_j65240553226497_2_alg».proof.Proof.Gen.KernelIdeal.Value
import proofs.«138768_j65240553226497_2_alg».proof.Proof.KernelBlock
import proofs.«138768_j65240553226497_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Reads

open Cert.KernelIdeal Cert.KernelIdeal.Gen Cert.KernelIdeal.Value Cert.KernelIdeal.Block Cert.PeepholeLstm
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid -/

/-- Point t's block of x, h, c and of the two results is block (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_18.index t (0 : Fin 2) = t.val ∧ win0_18.index t (1 : Fin 2) = 0
    ∧ win0_19.index t (0 : Fin 2) = t.val ∧ win0_19.index t (1 : Fin 2) = 0 :=
  (by decide +kernel : ∀ t : Fin grid0.N, _)

/-- Every point's block of a weight matrix or of a prepared row is block (0, 0): the whole array. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0)
    ∧ (win0_17.index t (0 : Fin 2) = 0 ∧ win0_17.index t (1 : Fin 2) = 0) :=
  (by decide +kernel : ∀ t : Fin grid0.N, _)

/-! ## The rows the host prepared, as the region finds them -/

/-- The input gate's bias row: the two bias vectors added, laid out as one row. -/
theorem V_bi (c : Dev nD) : @Eq (S1x1024.Idx → EReal) (V m c main_v1)
    (shapeCast S1x1024 (addf (F := Ideal) (s := S1024) (φ := .f32) (m ((c : Thread nD τ).loc main_arg4)) (m ((c : Thread nD τ).loc main_arg6))) shapeCasts_S1024_S1x1024) := by
  dsimp only [Gen.V, Gen.hostOps0]; after_results; rfl

/-- The forget gate's bias row. -/
theorem V_bf (c : Dev nD) : @Eq (S1x1024.Idx → EReal) (V m c main_v3)
    (shapeCast S1x1024 (addf (F := Ideal) (s := S1024) (φ := .f32) (m ((c : Thread nD τ).loc main_arg9)) (m ((c : Thread nD τ).loc main_arg11))) shapeCasts_S1024_S1x1024) := by
  dsimp only [Gen.V, Gen.hostOps0]; after_results; rfl

/-- The candidate's bias row. -/
theorem V_bg (c : Dev nD) : @Eq (S1x1024.Idx → EReal) (V m c main_v5)
    (shapeCast S1x1024 (addf (F := Ideal) (s := S1024) (φ := .f32) (m ((c : Thread nD τ).loc main_arg14)) (m ((c : Thread nD τ).loc main_arg16))) shapeCasts_S1024_S1x1024) := by
  dsimp only [Gen.V, Gen.hostOps0]; after_results; rfl

/-- The output gate's bias row. -/
theorem V_bo (c : Dev nD) : @Eq (S1x1024.Idx → EReal) (V m c main_v7)
    (shapeCast S1x1024 (addf (F := Ideal) (s := S1024) (φ := .f32) (m ((c : Thread nD τ).loc main_arg18)) (m ((c : Thread nD τ).loc main_arg20))) shapeCasts_S1024_S1x1024) := by
  dsimp only [Gen.V, Gen.hostOps0]; after_results; rfl

/-- The input gate's peephole row. -/
theorem V_wci (c : Dev nD) : @Eq (S1x1024.Idx → EReal) (V m c main_v8)
    (shapeCast S1x1024 (m ((c : Thread nD τ).loc main_arg7) : S1024.Idx → EReal) shapeCasts_S1024_S1x1024) := by
  dsimp only [Gen.V, Gen.hostOps0]; after_results; rfl

/-- The forget gate's peephole row. -/
theorem V_wcf (c : Dev nD) : @Eq (S1x1024.Idx → EReal) (V m c main_v9)
    (shapeCast S1x1024 (m ((c : Thread nD τ).loc main_arg12) : S1024.Idx → EReal) shapeCasts_S1024_S1x1024) := by
  dsimp only [Gen.V, Gen.hostOps0]; after_results; rfl

/-- The output gate's peephole row. -/
theorem V_wco (c : Dev nD) : @Eq (S1x1024.Idx → EReal) (V m c main_v10)
    (shapeCast S1x1024 (m ((c : Thread nD τ).loc main_arg21) : S1024.Idx → EReal) shapeCasts_S1024_S1x1024) := by
  dsimp only [Gen.V, Gen.hostOps0]; after_results; rfl

/-- A sum of two vectors laid out as one row, read at column j: the two entries at j added. -/
theorem sumRow_apply (a b : S1024.Idx → EReal) (j : Fin 1024) :
    shapeCast S1x1024 (addf (F := Ideal) (s := S1024) (φ := .f32) a b) shapeCasts_S1024_S1x1024 (ix2 (0 : Fin 1) j)
      = a (ix1 j) + b (ix1 j) :=
  shapeCast_a_1a_apply (addf (F := Ideal) (s := S1024) (φ := .f32) a b) shapeCasts_S1024_S1x1024 0 j

/-- A vector laid out as one row, read at column j: its entry at j. -/
theorem vecRow_apply (a : S1024.Idx → EReal) (j : Fin 1024) :
    shapeCast S1x1024 a shapeCasts_S1024_S1x1024 (ix2 (0 : Fin 1) j) = a (ix1 j) :=
  shapeCast_a_1a_apply a shapeCasts_S1024_S1x1024 0 j

/-! ## The staged blocks, read off the arrays -/

/-- Row p of point t's block of x is row 256 t + p of x. -/
theorem xblk_apply (c : Dev nD) (t : Fin cfg0.N) (p : Fin 256) (k : Fin 1024) (hr : 256 * t.val + p.val < 4096) :
    @Eq EReal ((iblk m c 0 t : S256x1024.Idx → EReal) (ix2 p k))
      ((m ((c : Thread nD τ).loc main_arg0) : S4096x1024.Idx → EReal) (ix2 (⟨256 * t.val + p.val, hr⟩ : Fin 4096) k)) := by
  obtain ⟨e0, e1, -⟩ := idx_rows t
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t (0 : Fin 2) * 256 + 1 * p.val = 256 * t.val + p.val; rw [e0]; omega
  | ⟨1, _⟩ => show win0_0.index t (1 : Fin 2) * 1024 + 1 * k.val = k.val; rw [e1]; omega

/-- Row p of point t's block of h is row 256 t + p of h. -/
theorem hblk_apply (c : Dev nD) (t : Fin cfg0.N) (p : Fin 256) (k : Fin 1024) (hr : 256 * t.val + p.val < 4096) :
    @Eq EReal ((iblk m c 1 t : S256x1024.Idx → EReal) (ix2 p k))
      ((m ((c : Thread nD τ).loc main_arg1) : S4096x1024.Idx → EReal) (ix2 (⟨256 * t.val + p.val, hr⟩ : Fin 4096) k)) := by
  obtain ⟨-, -, e0, e1, -⟩ := idx_rows t
  unfold iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ => show win0_1.index t (0 : Fin 2) * 256 + 1 * p.val = 256 * t.val + p.val; rw [e0]; omega
  | ⟨1, _⟩ => show win0_1.index t (1 : Fin 2) * 1024 + 1 * k.val = k.val; rw [e1]; omega

/-- Row p of point t's block of c is row 256 t + p of c. -/
theorem cblk_apply (c : Dev nD) (t : Fin cfg0.N) (p : Fin 256) (k : Fin 1024) (hr : 256 * t.val + p.val < 4096) :
    @Eq EReal ((iblk m c 2 t : S256x1024.Idx → EReal) (ix2 p k))
      ((m ((c : Thread nD τ).loc main_arg2) : S4096x1024.Idx → EReal) (ix2 (⟨256 * t.val + p.val, hr⟩ : Fin 4096) k)) := by
  obtain ⟨-, -, -, -, e0, e1, -⟩ := idx_rows t
  unfold iblk
  rw [View.read_apply]
  show V m c main_arg2 _ = m ((c : Thread nD τ).loc main_arg2) _
  rw [V_main_arg2]
  refine congrArg (m ((c : Thread nD τ).loc main_arg2)) (funext fun a => Fin.ext ?_)
  match a with
  | ⟨0, _⟩ => show win0_2.index t (0 : Fin 2) * 256 + 1 * p.val = 256 * t.val + p.val; rw [e0]; omega
  | ⟨1, _⟩ => show win0_2.index t (1 : Fin 2) * 1024 + 1 * k.val = k.val; rw [e1]; omega

/-- Every point's block of the input gate's input weights is the whole matrix. -/
theorem wii_blk (c : Dev nD) (t : Fin cfg0.N) :
    @Eq (S1024x1024.Idx → EReal) (iblk m c 3 t) (m ((c : Thread nD τ).loc main_arg3)) := by
  obtain ⟨⟨e0, e1⟩, -⟩ := idx_whole t
  funext y
  unfold iblk
  rw [View.read_apply]
  show V m c main_arg3 _ = m ((c : Thread nD τ).loc main_arg3) y
  rw [V_main_arg3]
  refine congrArg (m ((c : Thread nD τ).loc main_arg3)) (funext fun a => Fin.ext ?_)
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

/-- Every point's block of the input gate's hidden weights is the whole matrix. -/
theorem whi_blk (c : Dev nD) (t : Fin cfg0.N) :
    @Eq (S1024x1024.Idx → EReal) (iblk m c 4 t) (m ((c : Thread nD τ).loc main_arg5)) := by
  obtain ⟨-, ⟨e0, e1⟩, -⟩ := idx_whole t
  funext y
  unfold iblk
  rw [View.read_apply]
  show V m c main_arg5 _ = m ((c : Thread nD τ).loc main_arg5) y
  rw [V_main_arg5]
  refine congrArg (m ((c : Thread nD τ).loc main_arg5)) (funext fun a => Fin.ext ?_)
  match a with
  | ⟨0, _⟩ => show win0_4.index t (0 : Fin 2) * 1024 + 1 * (y 0).val = (y 0).val; rw [e0]; omega
  | ⟨1, _⟩ => show win0_4.index t (1 : Fin 2) * 1024 + 1 * (y 1).val = (y 1).val; rw [e1]; omega

/-- Every point's block of the forget gate's input weights is the whole matrix. -/
theorem wif_blk (c : Dev nD) (t : Fin cfg0.N) :
    @Eq (S1024x1024.Idx → EReal) (iblk m c 5 t) (m ((c : Thread nD τ).loc main_arg8)) := by
  obtain ⟨-, -, ⟨e0, e1⟩, -⟩ := idx_whole t
  funext y
  unfold iblk
  rw [View.read_apply]
  show V m c main_arg8 _ = m ((c : Thread nD τ).loc main_arg8) y
  rw [V_main_arg8]
  refine congrArg (m ((c : Thread nD τ).loc main_arg8)) (funext fun a => Fin.ext ?_)
  match a with
  | ⟨0, _⟩ => show win0_5.index t (0 : Fin 2) * 1024 + 1 * (y 0).val = (y 0).val; rw [e0]; omega
  | ⟨1, _⟩ => show win0_5.index t (1 : Fin 2) * 1024 + 1 * (y 1).val = (y 1).val; rw [e1]; omega

/-- Every point's block of the forget gate's hidden weights is the whole matrix. -/
theorem whf_blk (c : Dev nD) (t : Fin cfg0.N) :
    @Eq (S1024x1024.Idx → EReal) (iblk m c 6 t) (m ((c : Thread nD τ).loc main_arg10)) := by
  obtain ⟨-, -, -, ⟨e0, e1⟩, -⟩ := idx_whole t
  funext y
  unfold iblk
  rw [View.read_apply]
  show V m c main_arg10 _ = m ((c : Thread nD τ).loc main_arg10) y
  rw [V_main_arg10]
  refine congrArg (m ((c : Thread nD τ).loc main_arg10)) (funext fun a => Fin.ext ?_)
  match a with
  | ⟨0, _⟩ => show win0_6.index t (0 : Fin 2) * 1024 + 1 * (y 0).val = (y 0).val; rw [e0]; omega
  | ⟨1, _⟩ => show win0_6.index t (1 : Fin 2) * 1024 + 1 * (y 1).val = (y 1).val; rw [e1]; omega

/-- Every point's block of the candidate's input weights is the whole matrix. -/
theorem wig_blk (c : Dev nD) (t : Fin cfg0.N) :
    @Eq (S1024x1024.Idx → EReal) (iblk m c 7 t) (m ((c : Thread nD τ).loc main_arg13)) := by
  obtain ⟨-, -, -, -, ⟨e0, e1⟩, -⟩ := idx_whole t
  funext y
  unfold iblk
  rw [View.read_apply]
  show V m c main_arg13 _ = m ((c : Thread nD τ).loc main_arg13) y
  rw [V_main_arg13]
  refine congrArg (m ((c : Thread nD τ).loc main_arg13)) (funext fun a => Fin.ext ?_)
  match a with
  | ⟨0, _⟩ => show win0_7.index t (0 : Fin 2) * 1024 + 1 * (y 0).val = (y 0).val; rw [e0]; omega
  | ⟨1, _⟩ => show win0_7.index t (1 : Fin 2) * 1024 + 1 * (y 1).val = (y 1).val; rw [e1]; omega

/-- Every point's block of the candidate's hidden weights is the whole matrix. -/
theorem whg_blk (c : Dev nD) (t : Fin cfg0.N) :
    @Eq (S1024x1024.Idx → EReal) (iblk m c 8 t) (m ((c : Thread nD τ).loc main_arg15)) := by
  obtain ⟨-, -, -, -, -, ⟨e0, e1⟩, -⟩ := idx_whole t
  funext y
  unfold iblk
  rw [View.read_apply]
  show V m c main_arg15 _ = m ((c : Thread nD τ).loc main_arg15) y
  rw [V_main_arg15]
  refine congrArg (m ((c : Thread nD τ).loc main_arg15)) (funext fun a => Fin.ext ?_)
  match a with
  | ⟨0, _⟩ => show win0_8.index t (0 : Fin 2) * 1024 + 1 * (y 0).val = (y 0).val; rw [e0]; omega
  | ⟨1, _⟩ => show win0_8.index t (1 : Fin 2) * 1024 + 1 * (y 1).val = (y 1).val; rw [e1]; omega

/-- Every point's block of the output gate's input weights is the whole matrix. -/
theorem wio_blk (c : Dev nD) (t : Fin cfg0.N) :
    @Eq (S1024x1024.Idx → EReal) (iblk m c 9 t) (m ((c : Thread nD τ).loc main_arg17)) := by
  obtain ⟨-, -, -, -, -, -, ⟨e0, e1⟩, -⟩ := idx_whole t
  funext y
  unfold iblk
  rw [View.read_apply]
  show V m c main_arg17 _ = m ((c : Thread nD τ).loc main_arg17) y
  rw [V_main_arg17]
  refine congrArg (m ((c : Thread nD τ).loc main_arg17)) (funext fun a => Fin.ext ?_)
  match a with
  | ⟨0, _⟩ => show win0_9.index t (0 : Fin 2) * 1024 + 1 * (y 0).val = (y 0).val; rw [e0]; omega
  | ⟨1, _⟩ => show win0_9.index t (1 : Fin 2) * 1024 + 1 * (y 1).val = (y 1).val; rw [e1]; omega

/-- Every point's block of the output gate's hidden weights is the whole matrix. -/
theorem who_blk (c : Dev nD) (t : Fin cfg0.N) :
    @Eq (S1024x1024.Idx → EReal) (iblk m c 10 t) (m ((c : Thread nD τ).loc main_arg19)) := by
  obtain ⟨-, -, -, -, -, -, -, ⟨e0, e1⟩, -⟩ := idx_whole t
  funext y
  unfold iblk
  rw [View.read_apply]
  show V m c main_arg19 _ = m ((c : Thread nD τ).loc main_arg19) y
  rw [V_main_arg19]
  refine congrArg (m ((c : Thread nD τ).loc main_arg19)) (funext fun a => Fin.ext ?_)
  match a with
  | ⟨0, _⟩ => show win0_10.index t (0 : Fin 2) * 1024 + 1 * (y 0).val = (y 0).val; rw [e0]; omega
  | ⟨1, _⟩ => show win0_10.index t (1 : Fin 2) * 1024 + 1 * (y 1).val = (y 1).val; rw [e1]; omega

/-- Every point's block of the input gate's bias row is the whole row. -/
theorem bi_blk (c : Dev nD) (t : Fin cfg0.N) :
    @Eq (S1x1024.Idx → EReal) (iblk m c 11 t) (V m c main_v1) := by
  obtain ⟨-, -, -, -, -, -, -, -, ⟨e0, e1⟩, -⟩ := idx_whole t
  funext y
  unfold iblk
  rw [View.read_apply]
  show V m c main_v1 _ = V m c main_v1 y
  refine congrArg (V m c main_v1) (funext fun a => Fin.ext ?_)
  match a with
  | ⟨0, _⟩ => show win0_11.index t (0 : Fin 2) * 1 + 1 * (y 0).val = (y 0).val; rw [e0]; omega
  | ⟨1, _⟩ => show win0_11.index t (1 : Fin 2) * 1024 + 1 * (y 1).val = (y 1).val; rw [e1]; omega

/-- Every point's block of the forget gate's bias row is the whole row. -/
theorem bf_blk (c : Dev nD) (t : Fin cfg0.N) :
    @Eq (S1x1024.Idx → EReal) (iblk m c 12 t) (V m c main_v3) := by
  obtain ⟨-, -, -, -, -, -, -, -, -, ⟨e0, e1⟩, -⟩ := idx_whole t
  funext y
  unfold iblk
  rw [View.read_apply]
  show V m c main_v3 _ = V m c main_v3 y
  refine congrArg (V m c main_v3) (funext fun a => Fin.ext ?_)
  match a with
  | ⟨0, _⟩ => show win0_12.index t (0 : Fin 2) * 1 + 1 * (y 0).val = (y 0).val; rw [e0]; omega
  | ⟨1, _⟩ => show win0_12.index t (1 : Fin 2) * 1024 + 1 * (y 1).val = (y 1).val; rw [e1]; omega

/-- Every point's block of the candidate's bias row is the whole row. -/
theorem bg_blk (c : Dev nD) (t : Fin cfg0.N) :
    @Eq (S1x1024.Idx → EReal) (iblk m c 13 t) (V m c main_v5) := by
  obtain ⟨-, -, -, -, -, -, -, -, -, -, ⟨e0, e1⟩, -⟩ := idx_whole t
  funext y
  unfold iblk
  rw [View.read_apply]
  show V m c main_v5 _ = V m c main_v5 y
  refine congrArg (V m c main_v5) (funext fun a => Fin.ext ?_)
  match a with
  | ⟨0, _⟩ => show win0_13.index t (0 : Fin 2) * 1 + 1 * (y 0).val = (y 0).val; rw [e0]; omega
  | ⟨1, _⟩ => show win0_13.index t (1 : Fin 2) * 1024 + 1 * (y 1).val = (y 1).val; rw [e1]; omega

/-- Every point's block of the output gate's bias row is the whole row. -/
theorem bo_blk (c : Dev nD) (t : Fin cfg0.N) :
    @Eq (S1x1024.Idx → EReal) (iblk m c 14 t) (V m c main_v7) := by
  obtain ⟨-, -, -, -, -, -, -, -, -, -, -, ⟨e0, e1⟩, -⟩ := idx_whole t
  funext y
  unfold iblk
  rw [View.read_apply]
  show V m c main_v7 _ = V m c main_v7 y
  refine congrArg (V m c main_v7) (funext fun a => Fin.ext ?_)
  match a with
  | ⟨0, _⟩ => show win0_14.index t (0 : Fin 2) * 1 + 1 * (y 0).val = (y 0).val; rw [e0]; omega
  | ⟨1, _⟩ => show win0_14.index t (1 : Fin 2) * 1024 + 1 * (y 1).val = (y 1).val; rw [e1]; omega

/-- Every point's block of the input gate's peephole row is the whole row. -/
theorem wci_blk (c : Dev nD) (t : Fin cfg0.N) :
    @Eq (S1x1024.Idx → EReal) (iblk m c 15 t) (V m c main_v8) := by
  obtain ⟨-, -, -, -, -, -, -, -, -, -, -, -, ⟨e0, e1⟩, -⟩ := idx_whole t
  funext y
  unfold iblk
  rw [View.read_apply]
  show V m c main_v8 _ = V m c main_v8 y
  refine congrArg (V m c main_v8) (funext fun a => Fin.ext ?_)
  match a with
  | ⟨0, _⟩ => show win0_15.index t (0 : Fin 2) * 1 + 1 * (y 0).val = (y 0).val; rw [e0]; omega
  | ⟨1, _⟩ => show win0_15.index t (1 : Fin 2) * 1024 + 1 * (y 1).val = (y 1).val; rw [e1]; omega

/-- Every point's block of the forget gate's peephole row is the whole row. -/
theorem wcf_blk (c : Dev nD) (t : Fin cfg0.N) :
    @Eq (S1x1024.Idx → EReal) (iblk m c 16 t) (V m c main_v9) := by
  obtain ⟨-, -, -, -, -, -, -, -, -, -, -, -, -, ⟨e0, e1⟩, -⟩ := idx_whole t
  funext y
  unfold iblk
  rw [View.read_apply]
  show V m c main_v9 _ = V m c main_v9 y
  refine congrArg (V m c main_v9) (funext fun a => Fin.ext ?_)
  match a with
  | ⟨0, _⟩ => show win0_16.index t (0 : Fin 2) * 1 + 1 * (y 0).val = (y 0).val; rw [e0]; omega
  | ⟨1, _⟩ => show win0_16.index t (1 : Fin 2) * 1024 + 1 * (y 1).val = (y 1).val; rw [e1]; omega

/-- Every point's block of the output gate's peephole row is the whole row. -/
theorem wco_blk (c : Dev nD) (t : Fin cfg0.N) :
    @Eq (S1x1024.Idx → EReal) (iblk m c 17 t) (V m c main_v10) := by
  obtain ⟨-, -, -, -, -, -, -, -, -, -, -, -, -, -, ⟨e0, e1⟩⟩ := idx_whole t
  funext y
  unfold iblk
  rw [View.read_apply]
  show V m c main_v10 _ = V m c main_v10 y
  refine congrArg (V m c main_v10) (funext fun a => Fin.ext ?_)
  match a with
  | ⟨0, _⟩ => show win0_17.index t (0 : Fin 2) * 1 + 1 * (y 0).val = (y 0).val; rw [e0]; omega
  | ⟨1, _⟩ => show win0_17.index t (1 : Fin 2) * 1024 + 1 * (y 1).val = (y 1).val; rw [e1]; omega

end Cert.KernelIdeal.Reads

end
-- ==== Proof.KernelValue.lean ====
/-
  From blocks to arrays: what the kernel's two result arrays hold after the run.

  Entry (p, q) of what point t writes back is the cell function of Spec.lean at row p of the staged blocks
  (KernelBlock.lean). The staged weights and prepared rows are the whole arrays (KernelReads.lean), and a row of the
  result depends on x, h, c through that row only, so the entry is the cell function of the whole argument arrays at
  row 256 t + p. Point t writes back rows 256 t .. 256 t + 255, and the 16 row blocks cover the array: each result
  array is that function everywhere.
-/
import proofs.«138768_j65240553226497_2_alg».proof.Proof.KernelReads

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Value Cert.KernelIdeal.Block Cert.KernelIdeal.Reads
open Cert.PeepholeLstm Idealize.ShloMosaic.ValueIdx

variable (m : (ℓ : Loc nD τ sig) → Buf (Elt Ideal) ℓ) (ρ : Dev nD → PrngReg)

/-! ## The two result arrays as functions of the argument arrays -/

/-- The new cell array of Spec.lean at the kernel's argument arrays. -/
abbrev cArr (c : Dev nD) : S4096x1024.Idx → EReal :=
  cNextArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

/-- The new hidden array of Spec.lean at the kernel's argument arrays. -/
abbrev hArr (c : Dev nD) : S4096x1024.Idx → EReal :=
  hNextArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))

/-- Row 256 t + p is a row of the array. -/
theorem row_lt (t : Fin cfg0.N) (p : Fin 256) : 256 * t.val + p.val < 4096 := by
  have hN : cfg0.N = 16 := N_0
  have := t.isLt
  have := p.isLt
  omega

/-- Entry (p, q) of what point t's body stores for the cell output is the new cell array at (256 t + p, q). -/
theorem c_entry (c : Dev nD) (t : Fin cfg0.N) (p : Fin 256) (q : Fin 1024) :
    k0_pay7 (k0_pay2 (iblk m c 1 t)) (iblk m c 2 t)
        (k0_pay3 (iblk m c 0 t) (iblk m c 1 t) (iblk m c 3 t) (iblk m c 4 t) (iblk m c 11 t))
        (k0_pay4 (iblk m c 0 t) (iblk m c 1 t) (iblk m c 5 t) (iblk m c 6 t) (iblk m c 12 t)) (k0_pay5 (iblk m c 8 t))
        (k0_pay6 (iblk m c 0 t) (iblk m c 7 t)) (iblk m c 13 t) (iblk m c 15 t) (iblk m c 16 t) (ix2 p q)
      = cArr m c (ix2 (⟨256 * t.val + p.val, row_lt t p⟩ : Fin 4096) q) := by
  refine (cBlock_apply (iblk m c 0 t) (iblk m c 1 t) (iblk m c 2 t) (iblk m c 3 t) (iblk m c 4 t) (iblk m c 5 t)
    (iblk m c 6 t) (iblk m c 7 t) (iblk m c 8 t) (iblk m c 11 t) (iblk m c 12 t) (iblk m c 13 t) (iblk m c 15 t)
    (iblk m c 16 t) p q).trans ?_
  rw [wii_blk, whi_blk, wif_blk, whf_blk, wig_blk, whg_blk, bi_blk, bf_blk, bg_blk, wci_blk, wcf_blk,
    V_bi, V_bf, V_bg, V_wci, V_wcf]
  simp only [sumRow_apply, vecRow_apply]
  exact cNextAt_congr (iblk m c 0 t) (iblk m c 1 t) (iblk m c 2 t) _ _ _ _ _ _ _ _ _ _ _ _ _ _
    p (⟨256 * t.val + p.val, row_lt t p⟩ : Fin 4096) q
    (fun k => xblk_apply m c t p k (row_lt t p)) (fun k => hblk_apply m c t p k (row_lt t p))
    (cblk_apply m c t p q (row_lt t p))

/-- Entry (p, q) of what point t's body stores for the hidden output is the new hidden array at (256 t + p, q). -/
theorem h_entry (c : Dev nD) (t : Fin cfg0.N) (p : Fin 256) (q : Fin 1024) :
    k0_pay8 (k0_pay1 (iblk m c 0 t)) (k0_pay2 (iblk m c 1 t)) (iblk m c 2 t)
        (k0_pay3 (iblk m c 0 t) (iblk m c 1 t) (iblk m c 3 t) (iblk m c 4 t) (iblk m c 11 t))
        (k0_pay4 (iblk m c 0 t) (iblk m c 1 t) (iblk m c 5 t) (iblk m c 6 t) (iblk m c 12 t)) (k0_pay5 (iblk m c 8 t))
        (k0_pay6 (iblk m c 0 t) (iblk m c 7 t)) (iblk m c 13 t) (iblk m c 9 t) (iblk m c 10 t) (iblk m c 14 t)
        (iblk m c 15 t) (iblk m c 16 t) (iblk m c 17 t) (ix2 p q)
      = hArr m c (ix2 (⟨256 * t.val + p.val, row_lt t p⟩ : Fin 4096) q) := by
  refine (hBlock_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) p q).trans ?_
  rw [wii_blk, whi_blk, wif_blk, whf_blk, wig_blk, whg_blk, wio_blk, who_blk, bi_blk, bf_blk, bg_blk, bo_blk, wci_blk,
    wcf_blk, wco_blk, V_bi, V_bf, V_bg, V_bo, V_wci, V_wcf, V_wco]
  simp only [sumRow_apply, vecRow_apply]
  exact hNextAt_congr (iblk m c 0 t) (iblk m c 1 t) (iblk m c 2 t) _ _ _ _ _ _ _ _ _ _ _ _ _ _ _ _ _ _
    p (⟨256 * t.val + p.val, row_lt t p⟩ : Fin 4096) q
    (fun k => xblk_apply m c t p k (row_lt t p)) (fun k => hblk_apply m c t p k (row_lt t p))
    (cblk_apply m c t p q (row_lt t p))

/-! ## What each point writes back -/

/-- POINT t WRITES BACK block t of the new cell array. -/
theorem flushed_c (c : Dev nD) (t : Fin cfg0.N) :
    (dats m 0 c).flushed 19 t = ((cfg0.win 19).blk t).view.read (Elt Ideal) (cArr m c) := by
  obtain ⟨-, -, -, -, -, -, -, -, e0, e1⟩ := idx_rows t
  rw [flushed19]
  unfold out0_19
  rw [View.canon_unit_zero hz]
  simp only [View.ld_unit_zero (S := S256x1024) hz, View.ld_unit_zero (S := S1024x1024) hz,
    View.ld_unit_zero (S := S1x1024) hz]
  funext y
  obtain ⟨p, q, rfl⟩ : ∃ (p : Fin 256) (q : Fin 1024), y = ix2 p q := ⟨y 0, y 1, eq_ix2 y⟩
  refine (c_entry m c t p q).trans ?_
  rw [View.read_apply]
  show cArr m c _ = cArr m c _
  refine congrArg (cArr m c) (funext fun a => Fin.ext ?_)
  match a with
  | ⟨0, _⟩ => show 256 * t.val + p.val = win0_19.index t (0 : Fin 2) * 256 + 1 * p.val; rw [e0]; omega
  | ⟨1, _⟩ => show q.val = win0_19.index t (1 : Fin 2) * 1024 + 1 * q.val; rw [e1]; omega

/-- POINT t WRITES BACK block t of the new hidden array. -/
theorem flushed_h (c : Dev nD) (t : Fin cfg0.N) :
    (dats m 0 c).flushed 18 t = ((cfg0.win 18).blk t).view.read (Elt Ideal) (hArr m c) := by
  obtain ⟨-, -, -, -, -, -, e0, e1, -⟩ := idx_rows t
  rw [flushed18]
  unfold out0_18
  rw [View.canon_unit_zero hz]
  simp only [View.ld_unit_zero (S := S256x1024) hz, View.ld_unit_zero (S := S1024x1024) hz,
    View.ld_unit_zero (S := S1x1024) hz]
  funext y
  obtain ⟨p, q, rfl⟩ : ∃ (p : Fin 256) (q : Fin 1024), y = ix2 p q := ⟨y 0, y 1, eq_ix2 y⟩
  refine (h_entry m c t p q).trans ?_
  rw [View.read_apply]
  show hArr m c _ = hArr m c _
  refine congrArg (hArr m c) (funext fun a => Fin.ext ?_)
  match a with
  | ⟨0, _⟩ => show 256 * t.val + p.val = win0_18.index t (0 : Fin 2) * 256 + 1 * p.val; rw [e0]; omega
  | ⟨1, _⟩ => show q.val = win0_18.index t (1 : Fin 2) * 1024 + 1 * q.val; rw [e1]; omega

/-! ## The row blocks cover the arrays -/

/-- The point whose block holds row r is r / 256. -/
def pointOf (i : S4096x1024.Idx) : Fin cfg0.N :=
  ⟨(i 0).val / 256, by
    have hN : cfg0.N = 16 := N_0
    have hi : (i 0).val < 4096 := (i 0).isLt
    omega⟩

theorem pointOf_val (i : S4096x1024.Idx) : (pointOf i).val = (i 0).val / 256 := rfl

/-- Every index of the cell output lies in the block of the point its row names. -/
theorem cover_c (i : S4096x1024.Idx) :
    ∃ t : Fin cfg0.N, (cfg0.win 19).flush t = true ∧ i ∈ ((cfg0.win 19).blk t).view.set := by
  obtain ⟨-, -, -, -, -, -, -, -, e0, e1⟩ := idx_rows (pointOf i)
  have ht := pointOf_val i
  have hi0 : (i 0).val < 4096 := (i 0).isLt
  have hi1 : (i 1).val < 1024 := (i 1).isLt
  refine ⟨pointOf i, flush0_19 (pointOf i), ?_⟩
  show i ∈ ((View.whole main_v11_1).slice (win0_19.rect (pointOf i))).set
  rw [View.set_slice_whole, Rect.mem_set_unit]
  intro a
  match a with
  | ⟨0, _⟩ =>
    show win0_19.index (pointOf i) (0 : Fin 2) * 256 ≤ (i 0).val ∧ (i 0).val < win0_19.index (pointOf i) (0 : Fin 2) * 256 + 256
    rw [e0, ht]
    omega
  | ⟨1, _⟩ =>
    show win0_19.index (pointOf i) (1 : Fin 2) * 1024 ≤ (i 1).val ∧ (i 1).val < win0_19.index (pointOf i) (1 : Fin 2) * 1024 + 1024
    rw [e1]
    omega

/-- Every index of the hidden output lies in the block of the point its row names. -/
theorem cover_h (i : S4096x1024.Idx) :
    ∃ t : Fin cfg0.N, (cfg0.win 18).flush t = true ∧ i ∈ ((cfg0.win 18).blk t).view.set := by
  obtain ⟨-, -, -, -, -, -, e0, e1, -⟩ := idx_rows (pointOf i)
  have ht := pointOf_val i
  have hi0 : (i 0).val < 4096 := (i 0).isLt
  have hi1 : (i 1).val < 1024 := (i 1).isLt
  refine ⟨pointOf i, flush0_18 (pointOf i), ?_⟩
  show i ∈ ((View.whole main_v11_0).slice (win0_18.rect (pointOf i))).set
  rw [View.set_slice_whole, Rect.mem_set_unit]
  intro a
  match a with
  | ⟨0, _⟩ =>
    show win0_18.index (pointOf i) (0 : Fin 2) * 256 ≤ (i 0).val ∧ (i 0).val < win0_18.index (pointOf i) (0 : Fin 2) * 256 + 256
    rw [e0, ht]
    omega
  | ⟨1, _⟩ =>
    show win0_18.index (pointOf i) (1 : Fin 2) * 1024 ≤ (i 1).val ∧ (i 1).val < win0_18.index (pointOf i) (1 : Fin 2) * 1024 + 1024
    rw [e1]
    omega

/-! ## The result arrays, and the run -/

/-- After the run the cell output holds the new cell array. -/
theorem final_c (c : Dev nD) : (dats m 0 c).arrAt 19 cfg0.N = cArr m c :=
  (dats m 0 c).arrAt_eq_of_cover 19 (cArr m c) (fun t _ => flushed_c m c t) cover_c

/-- After the run the hidden output holds the new hidden array. -/
theorem final_h (c : Dev nD) : (dats m 0 c).arrAt 18 cfg0.N = hArr m c :=
  (dats m 0 c).arrAt_eq_of_cover 18 (hArr m c) (fun t _ => flushed_h m c t) cover_h

/-- THE KERNEL'S RUN at the ideal values: every weakly fair execution ends with the two result arrays at the hidden
    and cell functions of the argument arrays, and the arguments unchanged. -/
theorem run : θ_run defs (onTc (τ := τ) (main (F := Ideal))) ⟨m, fun _ => 0, ρ⟩ fun r => ∀ c : Dev nD,
      r.2.mem ((c : Thread nD τ).loc main_v11_0) = hArr m c
      ∧ r.2.mem ((c : Thread nD τ).loc main_v11_1) = cArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨(h c).1.trans (final_h m c), (h c).2.1.trans (final_c m c), (h c).2.2⟩)
    (run_blocks m ρ)

end Cert.KernelIdeal.Arrays

end
-- ==== Proof.Stack.lean ====
/-
  Four arrays of one shape laid end to end along the first axis, read at an index.

  The reference stacks the four gates' [1024, 1024] weight matrices into one [4096, 1024] matrix and their four
  [1024] bias vectors into one [4096] vector. Row 1024 g + j of the stacked matrix is row j of the g-th matrix, and
  entry 1024 g + j of the stacked vector is entry j of the g-th vector (the quotient by 1024 names the piece, the
  remainder the place inside it): gate g's columns of the fused product see gate g's weights and biases only. Over any
  element type; the four pieces are given as a family indexed by g.
-/
import Idealize.ShloMosaic.Lib.Pipeline.Value
import Idealize.ShloMosaic.Lib.ValueIdx

namespace Cert.PeepholeLstm.Stack

open Idealize.ShloMosaic Idealize.ShloMosaic.ValueIdx

/-- Four [1024, 1024] matrices stacked along the rows: row 1024 g + j of the stack, at column k, is piece g at (j, k). -/
theorem stackRows {α : Type} (y : Fin 4 → ((⟨2, ![1024, 1024]⟩ : Shape).Idx → α))
    (h : Shape.Concatenates ((List.ofFn fun n : Fin 4 => (⟨⟨2, ![1024, 1024]⟩, y n⟩ : (s : Shape) × (s.Idx → α))).map (·.1))
      ⟨2, ![4096, 1024]⟩ ⟨0, Nat.zero_lt_two⟩)
    (g : Fin 4) (j k : Fin 1024) (hj : 1024 * g.val + j.val < 4096) :
    concatenate ⟨2, ![4096, 1024]⟩ ⟨0, Nat.zero_lt_two⟩
        (List.ofFn fun n : Fin 4 => (⟨⟨2, ![1024, 1024]⟩, y n⟩ : (s : Shape) × (s.Idx → α))) h
        (ix2 (⟨1024 * g.val + j.val, hj⟩ : Fin 4096) k)
      = y g (ix2 j k) := by
  have hg := g.isLt
  have hjl := j.isLt
  refine concatenate_ofFn_apply ⟨0, Nat.zero_lt_two⟩ y h rfl 1024 rfl _ g ?_ (ix2 j k) ?_ ?_
  · show (1024 * g.val + j.val) / 1024 = g.val
    omega
  · show j.val = (1024 * g.val + j.val) % 1024
    omega
  · intro b hb
    match b with
    | ⟨0, _⟩ => exact absurd rfl hb
    | ⟨1, _⟩ => rfl

/-- Four [1024] vectors laid end to end: entry 1024 g + j is piece g at j. -/
theorem stackVec {α : Type} (y : Fin 4 → ((⟨1, ![1024]⟩ : Shape).Idx → α))
    (h : Shape.Concatenates ((List.ofFn fun n : Fin 4 => (⟨⟨1, ![1024]⟩, y n⟩ : (s : Shape) × (s.Idx → α))).map (·.1))
      ⟨1, ![4096]⟩ ⟨0, Nat.one_pos⟩)
    (g : Fin 4) (j : Fin 1024) (hj : 1024 * g.val + j.val < 4096) :
    concatenate ⟨1, ![4096]⟩ ⟨0, Nat.one_pos⟩
        (List.ofFn fun n : Fin 4 => (⟨⟨1, ![1024]⟩, y n⟩ : (s : Shape) × (s.Idx → α))) h
        (ix1 (⟨1024 * g.val + j.val, hj⟩ : Fin 4096))
      = y g (ix1 j) := by
  have hg := g.isLt
  have hjl := j.isLt
  refine concatenate_ofFn_apply ⟨0, Nat.one_pos⟩ y h rfl 1024 rfl _ g ?_ (ix1 j) ?_ ?_
  · show (1024 * g.val + j.val) / 1024 = g.val
    omega
  · show j.val = (1024 * g.val + j.val) % 1024
    omega
  · intro b hb
    match b with
    | ⟨0, _⟩ => exact absurd rfl hb

end Cert.PeepholeLstm.Stack
-- ==== Proof.RefValue.lean ====
/-
  The reference's two results, entry by entry, at the ideal values.

  The reference stacks the four gates' weights and biases, forms ONE fused pre-activation
  z = x @ Wx^T + h @ Wh^T + (bx + bh) of shape [4096, 4096], and cuts it into four [4096, 1024] column bands, one per
  gate. Column 1024 g + j of z sees row 1024 g + j of the stacked weights, which is row j of gate g's weights, and
  entry 1024 g + j of the stacked biases, which is entry j of gate g's: so band g of z at (r, j) is gate g's
  pre-activation of Spec.lean. The logistic function is spelt 1 / (1 + exp (-z)), which is its definition on the
  extended reals, and the remaining operations are the cell's, in the same order and association as Spec.lean.
-/
import proofs.«138768_j65240553226497_2_alg».proof.Proof.Gen.ReferenceIdeal.Read
import proofs.«138768_j65240553226497_2_alg».proof.Proof.Spec
import proofs.«138768_j65240553226497_2_alg».proof.Proof.Stack
import Idealize.ShloMosaic.Lib.Pipeline.Value
import Idealize.ShloMosaic.Lib.ValueIdx
import Idealize.ShloMosaic.PureOps.Ideal.Laws

noncomputable section

namespace Cert.ReferenceIdeal.Arrays

open Cert.ReferenceIdeal Cert.ReferenceIdeal.Read Cert.PeepholeLstm
open Idealize.ShloMosaic Idealize.ShloMosaic.ValueIdx

/-- The three kinds of argument array. -/
abbrev A : Type := (⟨S4096x1024, .f32⟩ : BufTy).Contents (Elt Ideal)
abbrev W : Type := (⟨S1024x1024, .f32⟩ : BufTy).Contents (Elt Ideal)
abbrev B : Type := (⟨S1024, .f32⟩ : BufTy).Contents (Elt Ideal)

/-- The literal 1.0 denotes the real number one. -/
theorem ofBits_one_f32 : Ideal.ofBits .f32 0x3F800000#32 = 1 := by
  simp [Ideal.ofBits, Ideal.ieee, -EReal.coe_mul]; norm_num

/-! ## The stacked weights and biases at a gate's rows -/

/-- Row 1024 g + j of the stacked input weights is row j of gate g's input weights. -/
theorem wx_rows (x3 x8 x13 x17 : W) (g : Fin 4) (j k : Fin 1024) (hj : 1024 * g.val + j.val < 4096) :
    val_main_v0 (F := Ideal) x3 x8 x13 x17 (ix2 (⟨1024 * g.val + j.val, hj⟩ : Fin 4096) k)
      = (![x3, x8, x13, x17] : Fin 4 → W) g (ix2 j k) := by
  unfold val_main_v0
  exact Stack.stackRows (![x3, x8, x13, x17] : Fin 4 → W) _ g j k hj

/-- Row 1024 g + j of the stacked hidden weights is row j of gate g's hidden weights. -/
theorem wh_rows (x5 x10 x15 x19 : W) (g : Fin 4) (j k : Fin 1024) (hj : 1024 * g.val + j.val < 4096) :
    val_main_v1 (F := Ideal) x5 x10 x15 x19 (ix2 (⟨1024 * g.val + j.val, hj⟩ : Fin 4096) k)
      = (![x5, x10, x15, x19] : Fin 4 → W) g (ix2 j k) := by
  unfold val_main_v1
  exact Stack.stackRows (![x5, x10, x15, x19] : Fin 4 → W) _ g j k hj

/-- Entry 1024 g + j of the stacked input biases is entry j of gate g's input bias. -/
theorem bx_rows (x4 x9 x14 x18 : B) (g : Fin 4) (j : Fin 1024) (hj : 1024 * g.val + j.val < 4096) :
    val_main_v2 (F := Ideal) x4 x9 x14 x18 (ix1 (⟨1024 * g.val + j.val, hj⟩ : Fin 4096))
      = (![x4, x9, x14, x18] : Fin 4 → B) g (ix1 j) := by
  unfold val_main_v2
  exact Stack.stackVec (![x4, x9, x14, x18] : Fin 4 → B) _ g j hj

/-- Entry 1024 g + j of the stacked hidden biases is entry j of gate g's hidden bias. -/
theorem bh_rows (x6 x11 x16 x20 : B) (g : Fin 4) (j : Fin 1024) (hj : 1024 * g.val + j.val < 4096) :
    val_main_v3 (F := Ideal) x6 x11 x16 x20 (ix1 (⟨1024 * g.val + j.val, hj⟩ : Fin 4096))
      = (![x6, x11, x16, x20] : Fin 4 → B) g (ix1 j) := by
  unfold val_main_v3
  exact Stack.stackVec (![x6, x11, x16, x20] : Fin 4 → B) _ g j hj

/-! ## The fused pre-activation -/

/-- The fused [4096, 4096] pre-activation at (r, c): row r of x against row c of the stacked input weights, plus row r
    of h against row c of the stacked hidden weights, plus the two stacked biases at c. -/
theorem fused_apply (x0 x1 : A) (x3 x5 x8 x10 x13 x15 x17 x19 : W) (x4 x6 x9 x11 x14 x16 x18 x20 : B)
    (r c : Fin 4096) :
    val_main_v12 (F := Ideal) x0 x1 x3 x4 x5 x6 x8 x9 x10 x11 x13 x14 x15 x16 x17 x18 x19 x20 (ix2 r c)
      = (∑ k : Fin 1024, x0 (ix2 r k) * val_main_v0 (F := Ideal) x3 x8 x13 x17 (ix2 c k))
        + (∑ k : Fin 1024, x1 (ix2 r k) * val_main_v1 (F := Ideal) x5 x10 x15 x19 (ix2 c k))
        + (val_main_v2 (F := Ideal) x4 x9 x14 x18 (ix1 c) + val_main_v3 (F := Ideal) x6 x11 x16 x20 (ix1 c)) := by
  rw [val_main_v12_apply, val_main_v8_apply, val_main_v5_apply, val_main_v7_apply, val_main_v11_apply,
    val_main_v10_apply, val_main_v9_apply]
  simp only [val_main_v4_apply, val_main_v6_apply]
  have e1 : ∀ k : Fin 1024, lidx_main_v5 (ix2 r c) k = ix2 r k := fun k => funext fun a => by
    match a with
    | ⟨0, _⟩ => rfl
    | ⟨1, _⟩ => rfl
  have e2 : ∀ k : Fin 1024, idx_main_v4 (ridx_main_v5 (ix2 r c) k) = ix2 c k := fun k => funext fun a => by
    match a with
    | ⟨0, _⟩ => rfl
    | ⟨1, _⟩ => rfl
  have e3 : ∀ k : Fin 1024, lidx_main_v7 (ix2 r c) k = ix2 r k := fun k => funext fun a => by
    match a with
    | ⟨0, _⟩ => rfl
    | ⟨1, _⟩ => rfl
  have e4 : ∀ k : Fin 1024, idx_main_v6 (ridx_main_v7 (ix2 r c) k) = ix2 c k := fun k => funext fun a => by
    match a with
    | ⟨0, _⟩ => rfl
    | ⟨1, _⟩ => rfl
  have e5 : idx_main_v10 (idx_main_v11 (ix2 r c)) = ix1 c := funext fun a => by
    match a with
    | ⟨0, _⟩ => rfl
  simp only [e1, e2, e3, e4, e5]
  rfl

/-- Band g of the fused pre-activation, at (r, j): gate g's pre-activation. Column 1024 g + j meets row j of gate g's
    two weight matrices and entry j of its two bias vectors. -/
theorem band_apply (x0 x1 : A) (x3 x5 x8 x10 x13 x15 x17 x19 : W) (x4 x6 x9 x11 x14 x16 x18 x20 : B) (g : Fin 4) (r : Fin 4096) (j : Fin 1024) (hj : 1024 * g.val + j.val < 4096) :
    val_main_v12 (F := Ideal) x0 x1 x3 x4 x5 x6 x8 x9 x10 x11 x13 x14 x15 x16 x17 x18 x19 x20 (ix2 r (⟨1024 * g.val + j.val, hj⟩ : Fin 4096))
      = preAct x0 x1 ((![x3, x8, x13, x17] : Fin 4 → W) g) ((![x5, x10, x15, x19] : Fin 4 → W) g)
          ((![x4, x9, x14, x18] : Fin 4 → B) g (ix1 j) + (![x6, x11, x16, x20] : Fin 4 → B) g (ix1 j)) r j := by
  rw [fused_apply, bx_rows, bh_rows]
  unfold preAct rowDot
  simp only [wx_rows, wh_rows]

/-! ## The four gates' pre-activations -/

/-- The input gate's band of the fused pre-activation. -/
theorem zi_apply (x0 x1 : A) (x3 x5 x8 x10 x13 x15 x17 x19 : W) (x4 x6 x9 x11 x14 x16 x18 x20 : B) (r : Fin 4096) (j : Fin 1024) :
    val_main_v13 (F := Ideal) x0 x1 x3 x4 x5 x6 x8 x9 x10 x11 x13 x14 x15 x16 x17 x18 x19 x20 (ix2 r j) = preAct x0 x1 x3 x5 (x4 (ix1 j) + x6 (ix1 j)) r j := by
  have hj : 1024 * (0 : Fin 4).val + j.val < 4096 := by
    have := j.isLt
    show 1024 * 0 + j.val < 4096
    omega
  have e : idx_main_v13 (ix2 r j) = ix2 r (⟨1024 * (0 : Fin 4).val + j.val, hj⟩ : Fin 4096) := funext fun a => Fin.ext (by
    match a with
    | ⟨0, _⟩ => rfl
    | ⟨1, _⟩ =>
      show j.val = 1024 * 0 + j.val
      omega)
  rw [val_main_v13_apply, e, band_apply]
  rfl

/-- The forget gate's band. -/
theorem zf_apply (x0 x1 : A) (x3 x5 x8 x10 x13 x15 x17 x19 : W) (x4 x6 x9 x11 x14 x16 x18 x20 : B) (r : Fin 4096) (j : Fin 1024) :
    val_main_v14 (F := Ideal) x0 x1 x3 x4 x5 x6 x8 x9 x10 x11 x13 x14 x15 x16 x17 x18 x19 x20 (ix2 r j) = preAct x0 x1 x8 x10 (x9 (ix1 j) + x11 (ix1 j)) r j := by
  have hj : 1024 * (1 : Fin 4).val + j.val < 4096 := by
    have := j.isLt
    show 1024 * 1 + j.val < 4096
    omega
  have e : idx_main_v14 (ix2 r j) = ix2 r (⟨1024 * (1 : Fin 4).val + j.val, hj⟩ : Fin 4096) := funext fun a => Fin.ext (by
    match a with
    | ⟨0, _⟩ => rfl
    | ⟨1, _⟩ =>
      show 1024 + j.val = 1024 * 1 + j.val
      omega)
  rw [val_main_v14_apply, e, band_apply]
  rfl

/-- The candidate's band. -/
theorem zg_apply (x0 x1 : A) (x3 x5 x8 x10 x13 x15 x17 x19 : W) (x4 x6 x9 x11 x14 x16 x18 x20 : B) (r : Fin 4096) (j : Fin 1024) :
    val_main_v15 (F := Ideal) x0 x1 x3 x4 x5 x6 x8 x9 x10 x11 x13 x14 x15 x16 x17 x18 x19 x20 (ix2 r j) = preAct x0 x1 x13 x15 (x14 (ix1 j) + x16 (ix1 j)) r j := by
  have hj : 1024 * (2 : Fin 4).val + j.val < 4096 := by
    have := j.isLt
    show 1024 * 2 + j.val < 4096
    omega
  have e : idx_main_v15 (ix2 r j) = ix2 r (⟨1024 * (2 : Fin 4).val + j.val, hj⟩ : Fin 4096) := funext fun a => Fin.ext (by
    match a with
    | ⟨0, _⟩ => rfl
    | ⟨1, _⟩ =>
      show 2048 + j.val = 1024 * 2 + j.val
      omega)
  rw [val_main_v15_apply, e, band_apply]
  rfl

/-- The output gate's band. -/
theorem zo_apply (x0 x1 : A) (x3 x5 x8 x10 x13 x15 x17 x19 : W) (x4 x6 x9 x11 x14 x16 x18 x20 : B) (r : Fin 4096) (j : Fin 1024) :
    val_main_v16 (F := Ideal) x0 x1 x3 x4 x5 x6 x8 x9 x10 x11 x13 x14 x15 x16 x17 x18 x19 x20 (ix2 r j) = preAct x0 x1 x17 x19 (x18 (ix1 j) + x20 (ix1 j)) r j := by
  have hj : 1024 * (3 : Fin 4).val + j.val < 4096 := by
    have := j.isLt
    show 1024 * 3 + j.val < 4096
    omega
  have e : idx_main_v16 (ix2 r j) = ix2 r (⟨1024 * (3 : Fin 4).val + j.val, hj⟩ : Fin 4096) := funext fun a => Fin.ext (by
    match a with
    | ⟨0, _⟩ => rfl
    | ⟨1, _⟩ =>
      show 3072 + j.val = 1024 * 3 + j.val
      omega)
  rw [val_main_v16_apply, e, band_apply]
  rfl

/-! ## The two results -/

/-- THE REFERENCE'S NEW CELL ARRAY at (r, j) is the cell function of the argument arrays. -/
theorem cNext_apply (x0 x1 x2 : A) (x3 : W) (x4 : B) (x5 : W) (x6 x7 : B) (x8 : W) (x9 : B) (x10 : W) (x11 x12 : B)
    (x13 : W) (x14 : B) (x15 : W) (x16 : B) (x17 : W) (x18 : B) (x19 : W) (x20 : B) (r : Fin 4096) (j : Fin 1024) :
    val_main_v40 (F := Ideal) x0 x1 x2 x3 x4 x5 x6 x7 x8 x9 x10 x11 x12 x13 x14 x15 x16 x17 x18 x19 x20 (ix2 r j)
      = cNextArr x0 x1 x2 x3 x4 x5 x6 x7 x8 x9 x10 x11 x12 x13 x14 x15 x16 (ix2 r j) := by
  have e7 : idx_main_v17 (idx_main_v18 (ix2 r j)) = ix1 j := funext fun a => by
    match a with
    | ⟨0, _⟩ => rfl
  have e12 : idx_main_v27 (idx_main_v28 (ix2 r j)) = ix1 j := funext fun a => by
    match a with
    | ⟨0, _⟩ => rfl
  simp only [val_main_v40_apply, val_main_v39_apply, val_main_v38_apply, val_main_v37_apply, val_main_v36_apply,
    val_main_v35_apply, val_main_v34_apply, val_main_v33_apply, val_main_v32_apply, val_main_v31_apply,
    val_main_v30_apply, val_main_v29_apply, val_main_v28_apply, val_main_v27_apply, val_main_v26_apply,
    val_main_v25_apply, val_main_v24_apply, val_main_v23_apply, val_main_v22_apply, val_main_v21_apply,
    val_main_v20_apply, val_main_v19_apply, val_main_v18_apply, val_main_v17_apply, val_main_cst_apply,
    val_main_cst_0_apply, val_main_cst_1_apply, val_main_cst_2_apply, zi_apply, zf_apply, zg_apply, e7, e12,
    Ideal.ofBits_def, ofBits_one_f32]
  rfl

/-- THE REFERENCE'S NEW HIDDEN ARRAY at (r, j) is the hidden function of the argument arrays. -/
theorem hNext_apply (x0 x1 x2 : A) (x3 : W) (x4 : B) (x5 : W) (x6 x7 : B) (x8 : W) (x9 : B) (x10 : W) (x11 x12 : B)
    (x13 : W) (x14 : B) (x15 : W) (x16 : B) (x17 : W) (x18 : B) (x19 : W) (x20 x21 : B) (r : Fin 4096) (j : Fin 1024) :
    val_main_v52 (F := Ideal) x0 x1 x2 x3 x4 x5 x6 x7 x8 x9 x10 x11 x12 x13 x14 x15 x16 x17 x18 x19 x20 x21 (ix2 r j)
      = hNextArr x0 x1 x2 x3 x4 x5 x6 x7 x8 x9 x10 x11 x12 x13 x14 x15 x16 x17 x18 x19 x20 x21 (ix2 r j) := by
  have e21 : idx_main_v41 (idx_main_v42 (ix2 r j)) = ix1 j := funext fun a => by
    match a with
    | ⟨0, _⟩ => rfl
  simp only [val_main_v52_apply, val_main_v51_apply, val_main_v50_apply, val_main_v49_apply, val_main_v48_apply,
    val_main_v47_apply, val_main_v46_apply, val_main_v45_apply, val_main_v44_apply, val_main_v43_apply,
    val_main_v42_apply, val_main_v41_apply, val_main_cst_3_apply, val_main_cst_4_apply, zo_apply, cNext_apply, e21,
    Ideal.ofBits_def, ofBits_one_f32]
  rfl

/-- The reference's new cell array, whole. -/
theorem cNext_eq (x0 x1 x2 : A) (x3 : W) (x4 : B) (x5 : W) (x6 x7 : B) (x8 : W) (x9 : B) (x10 : W) (x11 x12 : B)
    (x13 : W) (x14 : B) (x15 : W) (x16 : B) (x17 : W) (x18 : B) (x19 : W) (x20 : B) :
    val_main_v40 (F := Ideal) x0 x1 x2 x3 x4 x5 x6 x7 x8 x9 x10 x11 x12 x13 x14 x15 x16 x17 x18 x19 x20
      = cNextArr x0 x1 x2 x3 x4 x5 x6 x7 x8 x9 x10 x11 x12 x13 x14 x15 x16 := by
  funext i
  obtain ⟨r, j, rfl⟩ : ∃ (r : Fin 4096) (j : Fin 1024), i = ix2 r j := ⟨i 0, i 1, eq_ix2 i⟩
  exact cNext_apply x0 x1 x2 x3 x4 x5 x6 x7 x8 x9 x10 x11 x12 x13 x14 x15 x16 x17 x18 x19 x20 r j

/-- The reference's new hidden array, whole. -/
theorem hNext_eq (x0 x1 x2 : A) (x3 : W) (x4 : B) (x5 : W) (x6 x7 : B) (x8 : W) (x9 : B) (x10 : W) (x11 x12 : B)
    (x13 : W) (x14 : B) (x15 : W) (x16 : B) (x17 : W) (x18 : B) (x19 : W) (x20 x21 : B) :
    val_main_v52 (F := Ideal) x0 x1 x2 x3 x4 x5 x6 x7 x8 x9 x10 x11 x12 x13 x14 x15 x16 x17 x18 x19 x20 x21
      = hNextArr x0 x1 x2 x3 x4 x5 x6 x7 x8 x9 x10 x11 x12 x13 x14 x15 x16 x17 x18 x19 x20 x21 := by
  funext i
  obtain ⟨r, j, rfl⟩ : ∃ (r : Fin 4096) (j : Fin 1024), i = ix2 r j := ⟨i 0, i 1, eq_ix2 i⟩
  exact hNext_apply x0 x1 x2 x3 x4 x5 x6 x7 x8 x9 x10 x11 x12 x13 x14 x15 x16 x17 x18 x19 x20 x21 r j

end Cert.ReferenceIdeal.Arrays

end
-- ==== Proof.lean ====
/-
  The certificate of a peephole LSTM cell: one fused TPU kernel against its jnp reference, equal over the extended
  reals.

  The kernel runs over 16 row blocks of 256 batch rows. At each it forms the four gates' pre-activations by eight
  matrix products against the eight [1024, 1024] weight matrices (each contracted on its second axis: y = x @ W^T),
  adds the gate's two bias vectors (summed by the host beforehand) and applies the cell's pointwise operations. The
  reference stacks the four gates' weights and biases, forms ONE fused [4096, 4096] product and cuts it into four
  column bands. Both are, entry by entry, the functions cNextArr and hNextArr of Spec.lean: the same operations in
  the same order and association, so the equality uses no law of arithmetic beyond re-indexing a finite sum, and in
  particular does not need the inputs to be finite.
    * KernelBlock.lean: the body's two stored values at (p, q) over the staged blocks;
    * KernelReads.lean, KernelValue.lean: the staged blocks as rows of the arrays, the 16 blocks cover the results;
    * Stack.lean, RefValue.lean: row 1024 g + j of the stacked weights is row j of gate g's, so band g of the fused
      product is gate g's pre-activation; the logistic function spelt 1 / (1 + exp (-z)) is its definition.
  The three frames are the generated ones (the reference's is its generated run with the results dropped), and the
  idealized kernel is the kernel's own text read at the ideal values: the idealization rewrote nothing.
-/
import proofs.«138768_j65240553226497_2_alg».proof.Defs
import proofs.«138768_j65240553226497_2_alg».proof.Proof.Gen.Kernel
import proofs.«138768_j65240553226497_2_alg».proof.Proof.Gen.Kernel.Skeleton
import proofs.«138768_j65240553226497_2_alg».proof.Proof.Gen.Kernel.Launch
import proofs.«138768_j65240553226497_2_alg».proof.Proof.Gen.Kernel.Points
import proofs.«138768_j65240553226497_2_alg».proof.Proof.Gen.Kernel.Frame
import proofs.«138768_j65240553226497_2_alg».proof.Proof.Gen.KernelIdeal
import proofs.«138768_j65240553226497_2_alg».proof.Proof.Gen.KernelIdeal.Skeleton
import proofs.«138768_j65240553226497_2_alg».proof.Proof.Gen.KernelIdeal.Launch
import proofs.«138768_j65240553226497_2_alg».proof.Proof.Gen.KernelIdeal.Points
import proofs.«138768_j65240553226497_2_alg».proof.Proof.Gen.KernelIdeal.Frame
import proofs.«138768_j65240553226497_2_alg».proof.Proof.Gen.ReferenceIdeal
import proofs.«138768_j65240553226497_2_alg».proof.Proof.Gen.Pre_finite_inputs
import proofs.«138768_j65240553226497_2_alg».proof.Proof.Gen.KernelIdeal.Value
import proofs.«138768_j65240553226497_2_alg».proof.Proof.Gen.ReferenceIdeal.Run
import proofs.«138768_j65240553226497_2_alg».proof.Proof.Gen.ReferenceIdeal.Read
import proofs.«138768_j65240553226497_2_alg».proof.Proof.KernelValue
import proofs.«138768_j65240553226497_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with what it says about the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the 22 arguments, the kernel's hidden and cell outputs and the reference's two
    results are the same arrays: both runs end at hNextArr and cNextArr of the arguments. -/
theorem algebraic : Cert.algebraic_KernelIdeal_ReferenceIdeal := by
  intro m ρ m' ρ' _ hagree
  refine ⟨fun c => Cert.KernelIdeal.Arrays.hArr m c, fun c => Cert.KernelIdeal.Arrays.cArr m c,
    Cert.KernelIdeal.Arrays.run m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16, h17, h18, h19, h20, h21⟩ := hagree c
  refine ⟨(h c).1.trans ?_, (h c).2.1.trans ?_, (h c).2.2⟩
  · rw [Cert.ReferenceIdeal.Read.val_main_v52_eq, Cert.ReferenceIdeal.Arrays.hNext_eq, h0, h1, h2, h3, h4, h5, h6, h7, h8, h9, h10, h11, h12, h13, h14, h15, h16, h17, h18, h19, h20, h21]
  · rw [Cert.ReferenceIdeal.Read.val_main_v40_eq, Cert.ReferenceIdeal.Arrays.cNext_eq,
      h0, h1, h2, h3, h4, h5, h6, h7, h8, h9, h10, h11, h12, h13, h14, h15, h16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
